-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x768 : Shape := ⟨2, ![2048, 768]⟩
abbrev S100x768 : Shape := ⟨2, ![100, 768]⟩
abbrev S768x768 : Shape := ⟨2, ![768, 768]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x768 : S_.BroadcastsInDim S2048x768 (![] : Fin 0 → Fin S2048x768.rank)
  reducesTo_S2048x768_S_d0_1 : S2048x768.ReducesTo [0, 1] S_
  bcast_S_S100x768 : S_.BroadcastsInDim S100x768 (![] : Fin 0 → Fin S100x768.rank)
  reducesTo_S100x768_S_d0_1 : S100x768.ReducesTo [0, 1] S_
  bcast_S_S768x768 : S_.BroadcastsInDim S768x768 (![] : Fin 0 → Fin S768x768.rank)
  reducesTo_S768x768_S_d0_1 : S768x768.ReducesTo [0, 1] S_

variable [Facts]

def fn_part1 {F : FTy → Type} [FloatOps F] (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  main_v18

def fn {F : FTy → Type} [FloatOps F] (main_arg0 : FVec F S8192x2048 .f32) (main_arg1 : FVec F S2048x768 .f32) (main_arg2 : FVec F S100x768 .f32) (main_arg3 : FVec F S768x768 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x768 .f32 := Host.absf main_arg1
  let main_cst_0 : FVec F S_ .f32 := constant S_ .f32 0x7F800000#32
  let main_v5 : FVec F S2048x768 .f32 := broadcastInDim S2048x768 ![] bcast_S_S2048x768 main_cst_0
  let main_v6 : IVec S2048x768 1 := cmpf .olt main_v4 main_v5
  let main_c_1 : IVec S_ 1 := constantI S_ 1 1#1
  let main_v7 : IVec S_ 1 := (fun x v => Host.reduce IntOp.andi x v reducesTo_S2048x768_S_d0_1 h_S_) main_v6 main_c_1
  let main_v8 : IVec S_ 1 := andi main_v3 main_v7
  let main_v9 : FVec F S100x768 .f32 := Host.absf main_arg2
  let main_cst_2 : FVec F S_ .f32 := constant S_ .f32 0x7F800000#32
  let main_v10 : FVec F S100x768 .f32 := broadcastInDim S100x768 ![] bcast_S_S100x768 main_cst_2
  let main_v11 : IVec S100x768 1 := cmpf .olt main_v9 main_v10
  let main_c_3 : IVec S_ 1 := constantI S_ 1 1#1
  let main_v12 : IVec S_ 1 := (fun x v => Host.reduce IntOp.andi x v reducesTo_S100x768_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_v13 main_v16
-- ==== Kernel.lean ====
abbrev S8192x2048 : Shape := ⟨2, ![8192, 2048]⟩
abbrev S2048x768 : Shape := ⟨2, ![2048, 768]⟩
abbrev S100x768 : Shape := ⟨2, ![100, 768]⟩
abbrev S768x768 : Shape := ⟨2, ![768, 768]⟩
abbrev S_ : Shape := ⟨0, ![]⟩
abbrev S100 : Shape := ⟨1, ![100]⟩
abbrev S100x1 : Shape := ⟨2, ![100, 1]⟩
abbrev S1x100 : Shape := ⟨2, ![1, 100]⟩
abbrev S8192 : Shape := ⟨1, ![8192]⟩
abbrev S1024x2048 : Shape := ⟨2, ![1024, 2048]⟩
abbrev S1024 : Shape := ⟨1, ![1024]⟩
abbrev S1024x768 : Shape := ⟨2, ![1024, 768]⟩
abbrev S1024x1 : Shape := ⟨2, ![1024, 1]⟩
abbrev S1024x100 : Shape := ⟨2, ![1024, 100]⟩

abbrev nBuf : Space → Nat
  | .hbm => 19
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x768, .f32⟩
  | .hbm, ⟨2, _⟩ => ⟨S100x768, .f32⟩
  | .hbm, ⟨3, _⟩ => ⟨S768x768, .f32⟩
  | .hbm, ⟨4, _⟩ => ⟨S768x768, .f32⟩
  | .hbm, ⟨5, _⟩ => ⟨S768x768, .f32⟩
  | .hbm, ⟨6, _⟩ => ⟨S_, .f32⟩
  | .hbm, ⟨7, _⟩ => ⟨S768x768, .f32⟩
  | .hbm, ⟨8, _⟩ => ⟨S768x768, .f32⟩
  | .hbm, ⟨9, _⟩ => ⟨S2048x768, .bf16⟩
  | .hbm, ⟨10, _⟩ => ⟨S768x768, .bf16⟩
  | .hbm, ⟨11, _⟩ => ⟨S100x768, .bf16⟩
  | .hbm, ⟨12, _⟩ => ⟨S100x768, .f32⟩
  | .hbm, ⟨13, _⟩ => ⟨S100x768, .f32⟩
  | .hbm, ⟨14, _⟩ => ⟨S_, .f32⟩
  | .hbm, ⟨15, _⟩ => ⟨S100, .f32⟩
  | .hbm, ⟨16, _⟩ => ⟨S100x1, .f32⟩
  | .hbm, ⟨17, _⟩ => ⟨S1x100, .f32⟩
  | .hbm, ⟨18, _⟩ => ⟨S8192, .f32⟩
  | .local _ .vmem, ⟨0, _⟩ => ⟨S1024x2048, .f32⟩
  | .local _ .vmem, ⟨1, _⟩ => ⟨S1024x2048, .f32⟩
  | .local _ .vmem, ⟨2, _⟩ => ⟨S2048x768, .bf16⟩
  | .local _ .vmem, ⟨3, _⟩ => ⟨S100x768, .bf16⟩
  | .local _ .vmem, ⟨4, _⟩ => ⟨S768x768, .bf16⟩
  | .local _ .vmem, ⟨5, _⟩ => ⟨S1x100, .f32⟩
  | .local _ .vmem, ⟨6, _⟩ => ⟨S1024, .f32⟩
  | .local _ .vmem, ⟨7, _⟩ => ⟨S1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S100x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S768x768_S768x768_1_0 : S768x768.Transposes [1, 0] S768x768
  bcast_S_S768x768 : S_.BroadcastsInDim S768x768 (![] : Fin 0 → Fin S768x768.rank)
  bitsLt_bf16_f32 : FTy.bits .bf16 < FTy.bits .f32
  reducesTo_S100x768_S100_d1 : S100x768.ReducesTo [1] S100
  h_S_ : 0 < S_.numel
  bcast_S100_S100x1_0 : S100.BroadcastsInDim S100x1 (![0] : Fin 1 → Fin S100x1.rank)
  shapeCasts_S100x1_S1x100 : S100x1.ShapeCasts S1x100
  inb_S1024x2048_S1024x2048_0_0 : ∀ a, (![0, 0] : Fin 2 → Nat) a + S1024x2048.size a ≤ S1024x2048.size a
  h_S1024x2048 : 0 < S1024x2048.numel
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  reduces_S1024x768_S1024 : S1024x768.Reduces [1] S1024
  shapeCasts_S1024_S1024x1 : S1024.ShapeCasts S1024x1
  inb_S100x768_S100x768_0_0 : ∀ a, (![0, 0] : Fin 2 → Nat) a + S100x768.size a ≤ S100x768.size a
  h_S100x768 : 0 < S100x768.numel
  shapeCasts_S100x768_S100x768 : S100x768.ShapeCasts S100x768
  broadcasts_S1024x1_S1024x100 : S1024x1.Broadcasts S1024x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S1024x100 : S1x100.Broadcasts S1024x100
  reduces_S1024x100_S1024 : S1024x100.Reduces [1] S1024
  inb_S1024_S1024_0 : ∀ a, (![0] : Fin 1 → Nat) a + S1024.size a ≤ S1024.size a
  h_S1024 : 0 < S1024.numel
  dot_S100x768_S768x768_S100x768_1_0_0_1_n_n_wf : DotDims.WF S100x768 S768x768 S100x768 [1] [0] [0] [1] [] []
  dot_S1024x2048_S2048x768_S1024x768_1_0_0_1_n_n_wf : DotDims.WF S1024x2048 S2048x768 S1024x768 [1] [0] [0] [1] [] []
  dot_S1024x768_S768x768_S1024x768_1_0_0_1_n_n_wf : DotDims.WF S1024x768 S768x768 S1024x768 [1] [0] [0] [1] [] []
  dot_S1024x768_S100x768_S1024x100_1_1_0_0_n_n_wf : DotDims.WF S1024x768 S100x768 S1024x100 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S2048x768.size a
  hwx0_1 : ∀ i : grid0.Coords, EltTy.bits .bf16 = 32 ∨ (Rect.block (s := S2048x768) S2048x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x768.size a ≤ S100x768.size a
  hwx0_2 : ∀ i : grid0.Coords, EltTy.bits .bf16 = 32 ∨ (Rect.block (s := S100x768) S100x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x100.size a ≤ S1x100.size a
  hwx0_4 : ∀ i : grid0.Coords, EltTy.bits .f32 = 32 ∨ (Rect.block (s := S1x100) S1x100.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S8192.size a
  hwx0_5 : ∀ i : grid0.Coords, EltTy.bits .f32 = 32 ∨ (Rect.block (s := S8192) S1024.size (cc0_transform_5 i) (hinb0_5 i)).WholeWords (EltTy.packing .f32)

variable [Facts₀]

def dot_S100x768_S768x768_S100x768_1_0_0_1_n_n : DotDims S100x768 S768x768 S100x768 where
  lhsContracting := [1]
  rhsContracting := [0]
  lhsNonContracting := [0]
  rhsNonContracting := [1]
  lhsBatch := []
  rhsBatch := []
  wf := dot_S100x768_S768x768_S100x768_1_0_0_1_n_n_wf
def dot_S1024x2048_S2048x768_S1024x768_1_0_0_1_n_n : DotDims S1024x2048 S2048x768 S1024x768 where
  lhsContracting := [1]
  rhsContracting := [0]
  lhsNonContracting := [0]
  rhsNonContracting := [1]
  lhsBatch := []
  rhsBatch := []
  wf := dot_S1024x2048_S2048x768_S1024x768_1_0_0_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1024x768_S100x768_S1024x100_1_1_0_0_n_n : DotDims S1024x768 S100x768 S1024x100 where
  lhsContracting := [1]
  rhsContracting := [1]
  lhsNonContracting := [0]
  rhsNonContracting := [0]
  lhsBatch := []
  rhsBatch := []
  wf := dot_S1024x768_S100x768_S1024x100_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S100x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x768 : Shape := ⟨2, ![2048, 768]⟩
abbrev S100x768 : Shape := ⟨2, ![100, 768]⟩
abbrev S768x768 : Shape := ⟨2, ![768, 768]⟩
abbrev S8192x768 : Shape := ⟨2, ![8192, 768]⟩
abbrev S_ : Shape := ⟨0, ![]⟩
abbrev S8192 : Shape := ⟨1, ![8192]⟩
abbrev S768x100 : Shape := ⟨2, ![768, 100]⟩
abbrev S8192x100 : Shape := ⟨2, ![8192, 100]⟩
abbrev S100 : Shape := ⟨1, ![100]⟩
abbrev S8192x1 : Shape := ⟨2, ![8192, 1]⟩
abbrev S1x100 : Shape := ⟨2, ![1, 100]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x768, .f32⟩
  | .hbm, ⟨2, _⟩ => ⟨S100x768, .f32⟩
  | .hbm, ⟨3, _⟩ => ⟨S768x768, .f32⟩
  | .hbm, ⟨4, _⟩ => ⟨S8192x768, .f32⟩
  | .hbm, ⟨5, _⟩ => ⟨S8192x768, .f32⟩
  | .hbm, ⟨6, _⟩ => ⟨S100x768, .f32⟩
  | .hbm, ⟨7, _⟩ => ⟨S8192x768, .f32⟩
  | .hbm, ⟨8, _⟩ => ⟨S_, .f32⟩
  | .hbm, ⟨9, _⟩ => ⟨S8192, .f32⟩
  | .hbm, ⟨10, _⟩ => ⟨S768x100, .f32⟩
  | .hbm, ⟨11, _⟩ => ⟨S8192x100, .f32⟩
  | .hbm, ⟨12, _⟩ => ⟨S768x100, .f32⟩
  | .hbm, ⟨13, _⟩ => ⟨S8192x100, .f32⟩
  | .hbm, ⟨14, _⟩ => ⟨S100x768, .f32⟩
  | .hbm, ⟨15, _⟩ => ⟨S_, .f32⟩
  | .hbm, ⟨16, _⟩ => ⟨S100, .f32⟩
  | .hbm, ⟨17, _⟩ => ⟨S8192x1, .f32⟩
  | .hbm, ⟨18, _⟩ => ⟨S8192x100, .f32⟩
  | .hbm, ⟨19, _⟩ => ⟨S8192x100, .f32⟩
  | .hbm, ⟨20, _⟩ => ⟨S8192x100, .f32⟩
  | .hbm, ⟨21, _⟩ => ⟨S1x100, .f32⟩
  | .hbm, ⟨22, _⟩ => ⟨S8192x100, .f32⟩
  | .hbm, ⟨23, _⟩ => ⟨S8192x100, .f32⟩
  | .hbm, ⟨24, _⟩ => ⟨S_, .f32⟩
  | .hbm, ⟨25, _⟩ => ⟨S8192x100, .f32⟩
  | .hbm, ⟨26, _⟩ => ⟨S8192x100, .f32⟩
  | .hbm, ⟨27, _⟩ => ⟨S_, .f32⟩
  | .hbm, ⟨28, _⟩ => ⟨S8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  reducesTo_S8192x768_S8192_d1 : S8192x768.ReducesTo [1] S8192
  h_S_ : 0 < S_.numel
  transposes_S100x768_S768x100_1_0 : S100x768.Transposes [1, 0] S768x100
  reducesTo_S100x768_S100_d1 : S100x768.ReducesTo [1] S100
  bcast_S8192_S8192x1_0 : S8192.BroadcastsInDim S8192x1 (![0] : Fin 1 → Fin S8192x1.rank)
  bcast_S8192x1_S8192x100_0_1 : S8192x1.BroadcastsInDim S8192x100 (![0, 1] : Fin 2 → Fin S8192x100.rank)
  bcast_S100_S1x100_1 : S100.BroadcastsInDim S1x100 (![1] : Fin 1 → Fin S1x100.rank)
  bcast_S1x100_S8192x100_0_1 : S1x100.BroadcastsInDim S8192x100 (![0, 1] : Fin 2 → Fin S8192x100.rank)
  bcast_S_S8192x100 : S_.BroadcastsInDim S8192x100 (![] : Fin 0 → Fin S8192x100.rank)
  reducesTo_S8192x100_S8192_d1 : S8192x100.ReducesTo [1] S8192
  dot_S8192x2048_S2048x768_S8192x768_1_0_0_1_n_n_wf : DotDims.WF S8192x2048 S2048x768 S8192x768 [1] [0] [0] [1] [] []
  dot_S8192x768_S768x768_S8192x768_1_0_0_1_n_n_wf : DotDims.WF S8192x768 S768x768 S8192x768 [1] [0] [0] [1] [] []
  dot_S100x768_S768x768_S100x768_1_0_0_1_n_n_wf : DotDims.WF S100x768 S768x768 S100x768 [1] [0] [0] [1] [] []
  dot_S8192x768_S768x100_S8192x100_1_0_0_1_n_n_wf : DotDims.WF S8192x768 S768x100 S8192x100 [1] [0] [0] [1] [] []

variable [Facts₀]

def dot_S8192x2048_S2048x768_S8192x768_1_0_0_1_n_n : DotDims S8192x2048 S2048x768 S8192x768 where
  lhsContracting := [1]
  rhsContracting := [0]
  lhsNonContracting := [0]
  rhsNonContracting := [1]
  lhsBatch := []
  rhsBatch := []
  wf := dot_S8192x2048_S2048x768_S8192x768_1_0_0_1_n_n_wf
def dot_S8192x768_S768x768_S8192x768_1_0_0_1_n_n : DotDims S8192x768 S768x768 S8192x768 where
  lhsContracting := [1]
  rhsContracting := [0]
  lhsNonContracting := [0]
  rhsNonContracting := [1]
  lhsBatch := []
  rhsBatch := []
  wf := dot_S8192x768_S768x768_S8192x768_1_0_0_1_n_n_wf
def dot_S100x768_S768x768_S100x768_1_0_0_1_n_n : DotDims S100x768 S768x768 S100x768 where
  lhsContracting := [1]
  rhsContracting := [0]
  lhsNonContracting := [0]
  rhsNonContracting := [1]
  lhsBatch := []
  rhsBatch := []
  wf := dot_S100x768_S768x768_S100x768_1_0_0_1_n_n_wf
def dot_S8192x768_S768x100_S8192x100_1_0_0_1_n_n : DotDims S8192x768 S768x100 S8192x100 where
  lhsContracting := [1]
  rhsContracting := [0]
  lhsNonContracting := [0]
  rhsNonContracting := [1]
  lhsBatch := []
  rhsBatch := []
  wf := dot_S8192x768_S768x100_S8192x100_1_0_0_1_n_n_wf

class Facts : Prop extends Facts₀ where

variable [Facts]
-- ==== Proof.LibReal.lean ====
/-
  Extended reals that are real numbers. On the extended reals the sum and the product are commutative and associative,
  but the product distributes over the sum only away from the infinities. The predicate `IsR a` says `a` is (the image of)
  a real number; it is closed under every operation met here — sums, finite sums, products, differences, the guarded and
  the plain division by a nonzero real, the logistic function and the hyperbolic tangent — and under it the distributive
  law holds.
-/
import Idealize.ShloMosaic.PureOps.Ideal

noncomputable section

namespace Cert.LibReal

open Idealize.ShloMosaic

/-- `a` is a real number. -/
def IsR (a : EReal) : Prop := ∃ r : ℝ, a = (r : EReal)

theorem IsR.coe (r : ℝ) : IsR (r : EReal) := ⟨r, rfl⟩
theorem IsR.zero : IsR 0 := ⟨0, rfl⟩
theorem IsR.one : IsR 1 := ⟨1, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

/-- A finite sum of real numbers is a real number. -/
theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- The quotient of a real number by a nonzero real number. -/
theorem IsR.div {a b : EReal} (ha : IsR a) (hb : IsR b) (hb0 : b ≠ 0) : IsR (Ideal.div a b) := by
  obtain ⟨s, rfl⟩ := hb
  have hs : s ≠ 0 := fun e => hb0 (by rw [e]; rfl)
  rw [Ideal.div_coe hs]
  exact ha.mul (IsR.coe _)

theorem IsR.logistic {a : EReal} (ha : IsR a) : IsR (Ideal.logistic a) := by
  obtain ⟨r, rfl⟩ := ha; exact ⟨_, Ideal.logistic_coe r⟩

theorem IsR.tanh {a : EReal} (ha : IsR a) : IsR (Ideal.tanh a) := by
  obtain ⟨r, rfl⟩ := ha; exact ⟨_, Ideal.tanh_coe r⟩

/-- Among real numbers the product distributes over the sum. -/
theorem add_mul_of_isR {a b c : EReal} (ha : IsR a) (hb : IsR b) (hc : IsR c) : (a + b) * c = a * c + b * c := by
  obtain ⟨r, rfl⟩ := ha; obtain ⟨s, rfl⟩ := hb; obtain ⟨t, rfl⟩ := hc
  rw [← EReal.coe_add, ← EReal.coe_mul, ← EReal.coe_mul, ← EReal.coe_mul, ← EReal.coe_add, add_mul]

end Cert.LibReal

end
-- ==== Proof.LibRealOps.lean ====
/-
  More operations under which the real numbers among the extended reals are closed: negation, the exponential, the
  cosine; the pattern of `2.0`; and the inclusion of the real numbers commuting with finite sums (what lets a law of
  finite real sums be carried to extended reals that are real numbers).
-/
import Idealize.ShloMosaic.PureOps.Ideal
import proofs.«102880_j73744588473029_2_alg».proof.Proof.LibReal

noncomputable section

namespace Cert.LibRealOps

open Idealize.ShloMosaic Cert.LibReal

/-- The pattern of `2.0` denotes the real number 2. -/
theorem two_eq : Ideal.ofBits .f32 0x40000000#32 = ((2 : ℝ) : EReal) := by
  simp [Ideal.ofBits, Ideal.ieee, -EReal.coe_mul]; norm_num

theorem isR_two : IsR (Ideal.ofBits .f32 0x40000000#32) := ⟨2, two_eq⟩

/-- The negative of a real number is a real number. -/
theorem isR_neg {a : EReal} (ha : IsR a) : IsR (-a) := by
  obtain ⟨r, rfl⟩ := ha; exact ⟨-r, (EReal.coe_neg r).symm⟩

/-- The exponential of a real number is a real number. -/
theorem isR_exp {a : EReal} (ha : IsR a) : IsR (Ideal.exp a) := by
  obtain ⟨r, rfl⟩ := ha; exact ⟨Real.exp r, rfl⟩

/-- The cosine of a real number is a real number. -/
theorem isR_cos {a : EReal} (ha : IsR a) : IsR (Ideal.cos a) := by
  obtain ⟨r, rfl⟩ := ha; exact ⟨Real.cos r, rfl⟩

/-- The inclusion of the real numbers commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LibRealOps

end
-- ==== Proof.ScoreAlgebra.lean ====
/-
  The two arrangements of a Gaussian discriminant score, and why they agree.

  For a feature vector `z`, a class mean `μ` and a matrix `P` the score is `-½ (z - μ)ᵀ P (z - μ)`. One program expands
  the quadratic form with `P` itself into four terms, `zᵀPz - zᵀPμ - μᵀPz + μᵀPμ`. The other first replaces `P` by its
  symmetric part `S = ½ (P + Pᵀ)` and uses `zᵀSz - 2 zᵀSμ + μᵀSμ`. A quadratic form sees only the symmetric part of its
  matrix, `uᵀSu = uᵀPu`, and `2 uᵀSv = uᵀPv + vᵀPu`; so the two agree for EVERY matrix `P`, symmetric or not.

  The identity is one of finite real sums (it distributes products over sums), so it is proved over the real numbers
  and then carried to extended reals that are real numbers; at an infinity it would fail.
-/
import Idealize.ShloMosaic.PureOps.Ideal
import proofs.«102880_j73744588473029_2_alg».proof.Proof.LibReal
import proofs.«102880_j73744588473029_2_alg».proof.Proof.LibRealOps

noncomputable section

open scoped BigOperators

namespace Cert.Score

open Cert.LibReal

variable {D : Type} [Fintype D]

/-! ## Over the real numbers -/

/-- The bilinear form `uᵀ Q v`, in the order the programs compute it: the row vector `u Q` first, then its product
    with `v`. -/
def formR (u : D → ℝ) (Q : D → D → ℝ) (v : D → ℝ) : ℝ := ∑ d, (∑ e, u e * Q e d) * v d

/-- With the matrix `h (Q + Qᵀ)` the form is `h (uᵀQv + vᵀQu)`: the transposed half is the same double sum with the
    two summation indices exchanged. -/
theorem formR_symm (h : ℝ) (u v : D → ℝ) (Q : D → D → ℝ) :
    formR u (fun e d => h * (Q e d + Q d e)) v = h * (formR u Q v + formR v Q u) := by
  unfold formR
  have e1 : ∀ a b : D → ℝ, (∑ d, (∑ e, a e * Q e d) * b d) = ∑ d, ∑ e, a e * Q e d * b d :=
    fun a b => Finset.sum_congr rfl fun d _ => Finset.sum_mul _ _ _
  rw [e1 u v, e1 v u]
  have e2 : (∑ d, (∑ e, u e * (h * (Q e d + Q d e))) * v d)
      = ∑ d, ∑ e, (h * (u e * Q e d * v d) + h * (v d * Q d e * u e)) :=
    Finset.sum_congr rfl fun d _ => by
      rw [Finset.sum_mul]; exact Finset.sum_congr rfl fun e _ => by ring
  have e3 : (∑ d, ∑ e, v e * Q e d * u d) = ∑ d, ∑ e, v d * Q d e * u e := Finset.sum_comm
  rw [e2, e3]
  simp only [Finset.sum_add_distrib, ← Finset.mul_sum]
  ring

/-- The score's bracket in the two arrangements, over the real numbers. -/
theorem bracket_real (z m : D → ℝ) (Q : D → D → ℝ) :
    (formR z (fun e d => (1 / 2) * (Q e d + Q d e)) z - 2 * formR z (fun e d => (1 / 2) * (Q e d + Q d e)) m)
        + (0 + formR m (fun e d => (1 / 2) * (Q e d + Q d e)) m)
      = (((0 + formR z Q z) - formR z Q m) - (∑ d, z d * (∑ e, m e * Q e d))) + (0 + formR m Q m) := by
  rw [formR_symm, formR_symm, formR_symm]
  have hmz : (∑ d, z d * (∑ e, m e * Q e d)) = formR m Q z := Finset.sum_congr rfl fun d _ => mul_comm _ _
  rw [hmz]
  ring

/-! ## Over the extended reals -/

/-- The row vector `u Q`. -/
def vecMat (u : D → EReal) (Q : D → D → EReal) (d : D) : EReal := ∑ e, u e * Q e d

/-- The bilinear form `uᵀ Q v`. -/
def form (u : D → EReal) (Q : D → D → EReal) (v : D → EReal) : EReal := ∑ d, vecMat u Q d * v d

/-- `h (Q + Qᵀ)`: for `h = ½` the symmetric part of `Q`. -/
def symm (h : EReal) (Q : D → D → EReal) (e d : D) : EReal := h * (Q e d + Q d e)

/-- The score of one sample against one class, the symmetric-part arrangement: `c (zᵀSz - t · zᵀSμ + (o + μᵀSμ))`,
    with `c`, `t`, `h`, `o` the values of the printed constants `-½`, `2`, `½`, `0`. -/
def scoreSym (c o h t : EReal) (z m : D → EReal) (P : D → D → EReal) : EReal :=
  c * ((form z (symm h P) z - t * form z (symm h P) m) + (o + form m (symm h P) m))

/-- The same score, the four-term arrangement: `c ((o + zᵀPz) - zᵀPμ - μᵀPz + (o + μᵀPμ))`. -/
def scoreFour (c o : EReal) (z m : D → EReal) (P : D → D → EReal) : EReal :=
  c * ((((o + form z P z) - form z P m) - (∑ d, z d * vecMat m P d)) + (o + form m P m))

theorem vecMat_coe (u : D → ℝ) (Q : D → D → ℝ) (d : D) :
    vecMat (fun e => (u e : EReal)) (fun e d => (Q e d : EReal)) d = ((∑ e, u e * Q e d : ℝ) : EReal) := by
  unfold vecMat
  rw [LibRealOps.coe_sum]
  exact Finset.sum_congr rfl fun e _ => (EReal.coe_mul _ _).symm

theorem form_coe (u v : D → ℝ) (Q : D → D → ℝ) :
    form (fun d => (u d : EReal)) (fun e d => (Q e d : EReal)) (fun d => (v d : EReal)) = ((formR u Q v : ℝ) : EReal) := by
  unfold form formR
  rw [LibRealOps.coe_sum]
  refine Finset.sum_congr rfl fun d _ => ?_
  rw [vecMat_coe, ← EReal.coe_mul]

theorem symm_coe (h : ℝ) (Q : D → D → ℝ) :
    symm (h : EReal) (fun e d => (Q e d : EReal)) = fun e d => ((h * (Q e d + Q d e) : ℝ) : EReal) := by
  funext e d
  unfold symm
  rw [← EReal.coe_add, ← EReal.coe_mul]

/-- For real entries, with `h = ½` and `t = 2`, the two arrangements give the same score. -/
theorem scoreSym_eq_scoreFour (c o h t : EReal) (ho : o = 0) (hh : h = ((1 / 2 : ℝ) : EReal)) (ht : t = ((2 : ℝ) : EReal))
    (z m : D → EReal) (P : D → D → EReal) (hz : ∀ d, IsR (z d)) (hm : ∀ d, IsR (m d)) (hP : ∀ e d, IsR (P e d)) :
    scoreSym c o h t z m P = scoreFour c o z m P := by
  choose zr hzr using hz
  choose mr hmr using hm
  choose Pr hPr using hP
  obtain rfl : z = fun d => (zr d : EReal) := funext hzr
  obtain rfl : m = fun d => (mr d : EReal) := funext hmr
  obtain rfl : P = fun e d => (Pr e d : EReal) := funext fun e => funext fun d => hPr e d
  subst ho hh ht
  unfold scoreSym scoreFour
  refine congrArg (c * ·) ?_
  have hmz : (∑ d, (zr d : EReal) * vecMat (fun e => (mr e : EReal)) (fun e d => (Pr e d : EReal)) d)
      = ((∑ d, zr d * (∑ e, mr e * Pr e d) : ℝ) : EReal) := by
    rw [LibRealOps.coe_sum]
    exact Finset.sum_congr rfl fun d _ => by rw [vecMat_coe, ← EReal.coe_mul]
  rw [symm_coe, form_coe, form_coe, form_coe, form_coe, form_coe, form_coe, hmz]
  simp only [← EReal.coe_mul, ← EReal.coe_sub, ← EReal.coe_add, ← EReal.coe_zero]
  exact congrArg _ (bracket_real zr mr Pr)

end Cert.Score

end
-- ==== Proof.ScoreSpec.lean ====
/-
  The result array, as one function of the four argument arrays, in each of the two arrangements.

  Sample `n` has features `z = x[n] W`; class `k` has mean `μₖ`; entry `n` of the result is the largest, over the 100
  classes, of the score of `z` against `μₖ` — the fold of `max` from `-∞`. `resultSym` scores with the symmetric part of the
  matrix, `resultFour` with the four-term expansion. When every entry of the arguments is a real number the features
  are real numbers too, the two scores agree, and so do the two arrays.
-/
import proofs.«102880_j73744588473029_2_alg».proof.Proof.ScoreAlgebra
import Idealize.ShloMosaic.Lib.ValueIdx

noncomputable section

open scoped BigOperators

namespace Cert.Score

open Idealize.ShloMosaic Idealize.ShloMosaic.ValueIdx Cert.LibReal

/-- The features of sample `n`: `z d = Σ_j x[n, j] · W[j, d]`. -/
def features (x : (⟨2, ![8192, 2048]⟩ : Shape).Idx → EReal) (W : (⟨2, ![2048, 768]⟩ : Shape).Idx → EReal)
    (n : Fin 8192) (d : Fin 768) : EReal :=
  ∑ j : Fin 2048, x (ix2 n j) * W (ix2 j d)

/-- The result array, scoring with the symmetric part of the matrix. -/
def resultSym (x : (⟨2, ![8192, 2048]⟩ : Shape).Idx → EReal) (W : (⟨2, ![2048, 768]⟩ : Shape).Idx → EReal)
    (mu : (⟨2, ![100, 768]⟩ : Shape).Idx → EReal) (P : (⟨2, ![768, 768]⟩ : Shape).Idx → EReal) :
    (⟨1, ![8192]⟩ : Shape).Idx → EReal := fun i =>
  (Finset.univ : Finset (Fin 100)).fold max (Ideal.ofBits .f32 0xFF800000#32) fun k =>
    scoreSym (Ideal.ofBits .f32 0xBF000000#32) (Ideal.ofBits .f32 0x00000000#32) (Ideal.ofBits .f32 0x3F000000#32)
      (Ideal.ofBits .f32 0x40000000#32) (features x W (i 0)) (fun d => mu (ix2 k d)) (fun e d => P (ix2 e d))

/-- The result array, scoring with the four-term expansion. -/
def resultFour (x : (⟨2, ![8192, 2048]⟩ : Shape).Idx → EReal) (W : (⟨2, ![2048, 768]⟩ : Shape).Idx → EReal)
    (mu : (⟨2, ![100, 768]⟩ : Shape).Idx → EReal) (P : (⟨2, ![768, 768]⟩ : Shape).Idx → EReal) :
    (⟨1, ![8192]⟩ : Shape).Idx → EReal := fun i =>
  (Finset.univ : Finset (Fin 100)).fold max (Ideal.ofBits .f32 0xFF800000#32) fun k =>
    scoreFour (Ideal.ofBits .f32 0xBF000000#32) (Ideal.ofBits .f32 0x00000000#32)
      (features x W (i 0)) (fun d => mu (ix2 k d)) (fun e d => P (ix2 e d))

/-- The pattern of `0.5` denotes the real number ½. -/
theorem half_eq : Ideal.ofBits .f32 0x3F000000#32 = ((1 / 2 : ℝ) : EReal) := by
  simp [Ideal.ofBits, Ideal.ieee, -EReal.coe_mul]; norm_num

/-- The zero pattern denotes 0. -/
theorem zero_eq : Ideal.ofBits .f32 0x00000000#32 = 0 := by simp [Ideal.ofBits, Ideal.ieee]

/-- For real arguments the two arrangements give the same array. -/
theorem resultSym_eq_resultFour (x : (⟨2, ![8192, 2048]⟩ : Shape).Idx → EReal) (W : (⟨2, ![2048, 768]⟩ : Shape).Idx → EReal)
    (mu : (⟨2, ![100, 768]⟩ : Shape).Idx → EReal) (P : (⟨2, ![768, 768]⟩ : Shape).Idx → EReal)
    (hx : ∀ i, IsR (x i)) (hW : ∀ i, IsR (W i)) (hmu : ∀ i, IsR (mu i)) (hP : ∀ i, IsR (P i)) :
    resultSym x W mu P = resultFour x W mu P := by
  funext i
  unfold resultSym resultFour
  refine Finset.fold_congr fun k _ => ?_
  refine scoreSym_eq_scoreFour _ _ _ _ zero_eq half_eq Cert.LibRealOps.two_eq _ _ _ (fun d => ?_) (fun d => hmu _) (fun e d => hP _)
  unfold features
  exact IsR.sum _ _ fun j _ => (hx _).mul (hW _)

end Cert.Score

end
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.LibFinite.lean ====
/-
  A printed finiteness precondition read back. `jnp.all(|x| < +∞)` prints as a reduction by `and`, from the constant 1, of
  the comparison of `|x|` with the broadcast pattern of `+∞`; when that reduction is 1, every entry of `x` is a real
  number: an extended real whose absolute value `max a (-a)` is below `⊤` is neither infinity.
-/
import Idealize.ShloMosaic.Lib.ReduceAll
import Idealize.ShloMosaic.Lib.ValueIdx
import Idealize.ShloMosaic.PureOps.Ideal.Laws
import proofs.«102880_j73744588473029_2_alg».proof.Proof.LibReal
import proofs.«102880_j73744588473029_2_alg».proof.Proof.LibColumn

noncomputable section

namespace Cert.LibFinite

open Idealize.ShloMosaic Cert.LibReal

/-- The shape of rank zero has one index. -/
instance : Subsingleton (⟨0, ![]⟩ : Shape).Idx := ⟨fun _ _ => funext fun d => d.elim0⟩

/-- An extended real whose absolute value compares below the pattern of `+∞` is a real number. -/
theorem isR_of_abs_lt_inf (a : EReal)
    (h : Ideal.cmp .olt (max a (-a)) (Ideal.ofBits .f32 0x7F800000#32) = 1#1) : IsR a := by
  have htop : Ideal.ofBits .f32 0x7F800000#32 = ⊤ := by simp [Ideal.ofBits, Ideal.ieee]
  rw [htop] at h
  unfold Ideal.cmp at h
  have hlt : max a (-a) < ⊤ := by
    by_contra hn
    simp [hn] at h
  rw [max_lt_iff] at hlt
  induction a using EReal.rec with
  | bot => simp at hlt
  | coe r => exact ⟨r, rfl⟩
  | top => simp at hlt

/-- `jnp.all(|x| < +∞)` being 1 makes every entry of `x` a real number. -/
theorem isR_of_all_finite {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi
        (cmpf .olt (Host.absf x) (broadcastInDim s ![] bc (constant (F := Ideal) ⟨0, ![]⟩ .f32 0x7F800000#32)))
        (constantI ⟨0, ![]⟩ 1 1#1) h hu j = 1#1)
    (i : s.Idx) : IsR (x i) := by
  have hi := Host.reduce_andi_all _ _ h hu j e i
  rw [ValueIdx.cmpf_apply, Cert.LibColumn.broadcastInDim_scalar_apply] at hi
  exact isR_of_abs_lt_inf (x i) hi

end Cert.LibFinite

end
-- ==== Proof.FiniteInputs.lean ====
/-
  The precondition, read back: when the printed `finite_inputs` evaluates to 1 on four arrays, every entry of each of
  them is a real number. The predicate is the conjunction of four `jnp.all(|a| < +∞)`, one per array.
-/
import proofs.«102880_j73744588473029_2_alg».proof.Pre_finite_inputs
import proofs.«102880_j73744588473029_2_alg».proof.Proof.LibFinite
import Idealize.ShloMosaic.Lib.Affine

noncomputable section

namespace Cert.Score

open Idealize.ShloMosaic Cert.LibReal Cert.Pre_finite_inputs

variable [Cert.Pre_finite_inputs.Facts]
open Cert.Pre_finite_inputs.Facts

/-- Every entry of the samples, the projection, the class means and the matrix is a real number. -/
theorem real_of_finite_inputs (x : FVec Ideal S8192x2048 .f32) (W : FVec Ideal S2048x768 .f32) (mu : FVec Ideal S100x768 .f32)
    (P : FVec Ideal S768x768 .f32) (h : Cert.Pre_finite_inputs.fn (F := Ideal) x W mu P = fun _ => 1#1) :
    (∀ i, IsR (x i)) ∧ (∀ i, IsR (W i)) ∧ (∀ i, IsR (mu i)) ∧ (∀ i, IsR (P i)) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨LibFinite.isR_of_all_finite x _ _ _ _ h1, LibFinite.isR_of_all_finite W _ _ _ _ h2,
    LibFinite.isR_of_all_finite mu _ _ _ _ h3, LibFinite.isR_of_all_finite P _ _ _ _ h4⟩

end Cert.Score

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.KernelEntry.lean ====
/-
  The arrays the kernel's region finds, beyond the samples themselves.

  Before the region the program prepares four arrays from its arguments: the projection `W` and the class means `μ`
  narrowed to a shorter float format (on the extended reals a change of format is the identity, so these are `W` and
  `μ`); the symmetric part `S = ½ (P + Pᵀ)` of the matrix; and, for each class `k`, the number `0 + μₖᵀ S μₖ`, laid
  out as one row `[1, 100]`. Each is read here at an index, as the formulas of the score.
-/
import proofs.«102880_j73744588473029_2_alg».proof.Proof.Gen.KernelIdeal.Frame
import proofs.«102880_j73744588473029_2_alg».proof.Proof.LibColumn
import proofs.«102880_j73744588473029_2_alg».proof.Proof.LibDot
import proofs.«102880_j73744588473029_2_alg».proof.Proof.ScoreAlgebra
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

open scoped BigOperators

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.Score

/-- The host's rows-by-columns product, read at `(a, b)`: the sum over the shared axis. -/
theorem hostDot_apply {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : FVec Ideal ⟨2, ![M, K]⟩ φ₁) (r : FVec Ideal ⟨2, ![K, N]⟩ φ₂) (a : Fin M) (b : Fin N) :
    Host.dotGeneral D none l r (ix2 a b) = ∑ k : Fin K, l (ix2 a k) * r (ix2 k b) := by
  simp only [Host.dotGeneral]
  rw [Ideal.dotGeneral_apply]
  exact PlainDot.sum_eq D h1 h2 h3 h4 h5 h6 l r a b

/-- The host's sum along a row of a `[100, 768]` array, read at row `k`: the initial value plus the sum over the row. -/
theorem hostRowSum_apply (x : FVec Ideal S100x768 .f32) (init : FVec Ideal S_ .f32) (h' : S100x768.ReducesTo [1] S100)
    (hu : 0 < S_.numel) (k : Fin 100) :
    Host.reduceAdd x init h' hu (ix1 k) = init (Shape.Idx.first hu) + ∑ d : Fin 768, x (ix2 k d) := by
  simp only [Host.reduceAdd, Ideal.hostReduceAdd_def]
  refine (Ideal.hostReduceAdd_single h' (by decide) x _ (ix1 k)).trans (congrArg (_ + ·) (Finset.sum_congr rfl fun d _ => ?_))
  exact congrArg x (funext fun a => Fin.ext (by match a with | ⟨0, _⟩ => rfl | ⟨1, _⟩ => rfl))

/-- `½ (P + Pᵀ)` as the host operations spell it, read at `(e, d)`. -/
theorem symPart_apply (P : FVec Ideal S768x768 .f32) (e d : Fin 768) :
    mulf (broadcastInDim S768x768 ![] bcast_S_S768x768 (constant (F := Ideal) S_ .f32 0x3F000000#32))
        (addf P (transpose S768x768 [1, 0] P transposes_S768x768_S768x768_1_0)) (ix2 e d)
      = symm (Ideal.ofBits .f32 0x3F000000#32) (fun e d => P (ix2 e d)) e d := by
  rw [mulf_apply, Cert.LibColumn.broadcastInDim_scalar_apply, constant_apply, addf_apply, transpose_ix2_apply]
  rfl

variable (m : (ℓ : Loc nD τ sig) → Buf (Elt Ideal) ℓ)

/-- The region finds the projection as launched. -/
theorem weights (c : Dev nD) : (V m c main_v4 : S2048x768.Idx → EReal) = m ((c : Thread nD τ).loc main_arg1) := by
  dsimp only [Gen.V, Gen.hostOps0]; after_results <;> rfl

/-- The region finds the class means as launched. -/
theorem means (c : Dev nD) : (V m c main_v6 : S100x768.Idx → EReal) = m ((c : Thread nD τ).loc main_arg2) := by
  dsimp only [Gen.V, Gen.hostOps0]; after_results <;> rfl

/-- The region finds, in place of the matrix, its symmetric part. -/
theorem symPart (c : Dev nD) (e d : Fin 768) :
    V m c main_v5 (ix2 e d)
      = symm (Ideal.ofBits .f32 0x3F000000#32) (fun e d => m ((c : Thread nD τ).loc main_arg3) (ix2 e d)) e d := by
  have h : (V m c main_v5 : S768x768.Idx → EReal)
      = truncf .bf16 (mulf (broadcastInDim S768x768 ![] bcast_S_S768x768 (constant (F := Ideal) S_ .f32 0x3F000000#32))
          (addf (m ((c : Thread nD τ).loc main_arg3))
            (transpose S768x768 [1, 0] (m ((c : Thread nD τ).loc main_arg3)) transposes_S768x768_S768x768_1_0))) bitsLt_bf16_f32 := by
    dsimp only [Gen.V, Gen.hostOps0]; after_results <;> rfl
  rw [h, truncf_apply]
  exact symPart_apply _ e d

/-- The region finds, at class `k` of the one-row array, `0 + μₖᵀ S μₖ`. -/
theorem classRow (c : Dev nD) (k : Fin 100) :
    V m c main_v11 (ix2 (0 : Fin 1) k)
      = Ideal.ofBits .f32 0x00000000#32
        + form (fun d => m ((c : Thread nD τ).loc main_arg2) (ix2 k d))
            (symm (Ideal.ofBits .f32 0x3F000000#32) (fun e d => m ((c : Thread nD τ).loc main_arg3) (ix2 e d)))
            (fun d => m ((c : Thread nD τ).loc main_arg2) (ix2 k d)) := by
  have h : (V m c main_v11 : S1x100.Idx → EReal)
      = shapeCast S1x100 (broadcastInDim S100x1 ![0] bcast_S100_S100x1_0
          (Host.reduceAdd
            (mulf
              (Host.dotGeneral (φ₁ := .f32) (φ₂ := .f32) dot_S100x768_S768x768_S100x768_1_0_0_1_n_n none (m ((c : Thread nD τ).loc main_arg2))
                (mulf (broadcastInDim S768x768 ![] bcast_S_S768x768 (constant (F := Ideal) S_ .f32 0x3F000000#32))
                  (addf (m ((c : Thread nD τ).loc main_arg3))
                    (transpose S768x768 [1, 0] (m ((c : Thread nD τ).loc main_arg3)) transposes_S768x768_S768x768_1_0))))
              (m ((c : Thread nD τ).loc main_arg2)))
            (constant (F := Ideal) S_ .f32 0x00000000#32) reducesTo_S100x768_S100_d1 h_S_)) shapeCasts_S100x1_S1x100 := by
    dsimp only [Gen.V, Gen.hostOps0]; after_results <;> rfl
  rw [h]
  refine (shapeCast_apply _ _ (ix2 (0 : Fin 1) k) (ix2 k (0 : Fin 1)) (by
    rw [Shape.rowMajor_val_two, Shape.rowMajor_val_two]
    show k.val * 1 + 0 = 0 * 100 + k.val
    omega)).trans ?_
  refine (Cert.LibColumn.broadcastInDim_a_a1_apply _ _ k 0).trans ?_
  refine (hostRowSum_apply _ _ _ _ k).trans ?_
  refine congrArg₂ (· + ·) rfl ?_
  unfold form vecMat
  refine Finset.sum_congr rfl fun d _ => ?_
  show _ * _ = _
  refine congrArg₂ (· * ·) ?_ rfl
  refine (hostDot_apply (φ₁ := .f32) (φ₂ := .f32) dot_S100x768_S768x768_S100x768_1_0_0_1_n_n rfl rfl rfl rfl rfl rfl _ _ k d).trans ?_
  exact Finset.sum_congr rfl fun e _ => congrArg₂ (· * ·) rfl (symPart_apply _ e d)

end Cert.KernelIdeal.Entry

end
-- ==== Proof.LibDotT.lean ====
/-
  A product of a rows-by-depth array with the TRANSPOSE of a columns-by-depth array, read at an index.

  For dimension numbers that contract the second axis of both operands (the `M × K` by `N × K` product `x · wᵀ`,
  what a linear layer with weights stored output-major computes), the sum over the contraction index that both the
  kernel's matrix unit and the host's `dot_general` denote on the extended reals is `Σ_k l (a, k) · r (b, k)`.
-/
import Idealize.ShloMosaic.PureOps.Ideal.Laws
import Idealize.ShloMosaic.Lib.ValueIdx

noncomputable section

open scoped BigOperators

namespace Cert.LibDotT

open Idealize.ShloMosaic Idealize.ShloMosaic.ValueIdx

variable {M K N : ℕ}

/-- The contraction sum of `x · wᵀ` at output index `(a, b)` is the sum over `k : Fin K` of `l (a, k) · r (b, k)`.
    The dimension numbers are given by their six lists, as a printed record states them. -/
theorem sum_eq (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (a : Fin M) (b : Fin N) :
    ∑ k : D.contr.Idx, l (D.lhsIdx (ix2 a b) k) * r (D.rhsIdx (ix2 a b) k) = ∑ k : Fin K, l (ix2 a k) * r (ix2 b k) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![N, K]⟩) (so := ⟨2, ![M, N]⟩) [1] [1] [0] [0] [] [] wf).contr.rank = 1 := rfl
  have hs : (DotDims.mk (sl := ⟨2, ![M, K]⟩) (sr := ⟨2, ![N, K]⟩) (so := ⟨2, ![M, N]⟩) [1] [1] [0] [0] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![N, K]⟩) (so := ⟨2, ![M, N]⟩) [1] [1] [0] [0] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![N, K]⟩) (so := ⟨2, ![M, N]⟩) [1] [1] [0] [0] [] [] wf).rhsIdx (ix2 a b) ((contrEquiv1 _ K hr hs).symm k) = ix2 b k := by
    funext d
    match d with
    | ⟨0, _⟩ => rfl
    | ⟨1, _⟩ =>
      refine Fin.ext ?_
      exact (DotDims.rhsIdx_val_of_single _ (cr := 1) rfl (ix2 a b) _).trans (contrEquiv1_symm_val _ K hr hs k)
  rw [el, er]

end Cert.LibDotT

end
-- ==== Proof.KernelBody.lean ====
/-
  The kernel's body at one row of a block.

  From a block of 1024 samples `x₀`, the projection `w`, a matrix `q`, the class means `μ` and a row `r` of per-class
  numbers the body computes, for row `p`: the features `z = x₀[p] w`; the row vector `z q`; the number `(z q) · z`; for each
  class `k` the number `(z q) · μₖ`; the score `c ((z q)·z - t (z q)·μₖ + rₖ)` with `c`, `t` the values of the printed
  constants `-½` and `2`; and the maximum of the scores over the classes, from `-∞`.
-/
import proofs.«102880_j73744588473029_2_alg».proof.Proof.Gen.KernelIdeal.Frame
import proofs.«102880_j73744588473029_2_alg».proof.Proof.LibColumn
import proofs.«102880_j73744588473029_2_alg».proof.Proof.LibDot
import proofs.«102880_j73744588473029_2_alg».proof.Proof.LibDotT
import proofs.«102880_j73744588473029_2_alg».proof.Proof.ScoreAlgebra
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Score

/-! ## The operations that are not pointwise, read at an index -/

/-- The matrix unit's rows-by-columns product into zeros, read at `(a, b)`: the sum over the shared axis. -/
theorem matmul_plain_apply {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : FVec Ideal ⟨2, ![M, K]⟩ φ₁) (r : FVec Ideal ⟨2, ![K, N]⟩ φ₂) (a : Fin M) (b : Fin N) :
    matmul D none l r (constant ⟨2, ![M, N]⟩ .f32 0x00000000#32) (ix2 a b) = ∑ k : Fin K, l (ix2 a k) * r (ix2 k b) := by
  simp only [matmul]
  rw [Ideal.matmul_constant_zero_apply]
  exact PlainDot.sum_eq D h1 h2 h3 h4 h5 h6 l r a b

/-- The matrix unit's product with a transposed right operand into zeros, read at `(a, b)`. -/
theorem matmul_transposed_apply {M K N : ℕ} {φ₁ φ₂ : FTy} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : FVec Ideal ⟨2, ![M, K]⟩ φ₁) (r : FVec Ideal ⟨2, ![N, K]⟩ φ₂) (a : Fin M) (b : Fin N) :
    matmul D none l r (constant ⟨2, ![M, N]⟩ .f32 0x00000000#32) (ix2 a b) = ∑ k : Fin K, l (ix2 a k) * r (ix2 b k) := by
  simp only [matmul]
  rw [Ideal.matmul_constant_zero_apply]
  exact Cert.LibDotT.sum_eq D h1 h2 h3 h4 h5 h6 l r a b

/-- The sum along a row of a `[1024, 768]` block, read at row `p`. -/
theorem rowSum_apply (src : FVec Ideal S1024x768 .f32) (h : S1024x768.Reduces [1] S1024) (hφ : FKind.Formats .f32)
    (hacc : (0x00000000#32 : BitVec 32) = FKind.add.neutral .f32 hφ) (p : Fin 1024) :
    multiReduction .add [1] S1024 src 0x00000000#32 h hφ hacc (ix1 p) = ∑ d : Fin 768, src (ix2 p d) :=
  (Ideal.multiReduction_add_single src _ h hφ hacc (ix1 p)).trans
    (Finset.sum_congr rfl fun d _ => congrArg src
      (funext fun a => Fin.ext (by match a with | ⟨0, _⟩ => rfl | ⟨1, _⟩ => rfl)))

/-- The maximum along a row of a `[1024, 100]` block, read at row `p`: the fold of `max` from `-∞` over the classes. -/
theorem rowMax_apply (src : FVec Ideal S1024x100 .f32) (h : S1024x100.Reduces [1] S1024) (hφ : FKind.Formats .f32)
    (hacc : (0xFF800000#32 : BitVec 32) = FKind.maximumf.neutral .f32 hφ) (p : Fin 1024) :
    multiReduction .maximumf [1] S1024 src 0xFF800000#32 h hφ hacc (ix1 p)
      = (Finset.univ : Finset (Fin 100)).fold max (Ideal.ofBits .f32 0xFF800000#32) (fun k => src (ix2 p k)) :=
  (Ideal.multiReduction_maximumf_single src _ h hφ hacc (ix1 p)).trans
    (Finset.fold_congr fun k _ => congrArg src
      (funext fun a => Fin.ext (by match a with | ⟨0, _⟩ => rfl | ⟨1, _⟩ => rfl)))

/-! ## The body's stages -/

/-- The features of row `p`: `z d = Σ_j x₀[p, j] · w[j, d]`. -/
def feat (x0 : FVec Ideal S1024x2048 .f32) (w : FVec Ideal S2048x768 .bf16) (p : Fin 1024) (d : Fin 768) : EReal :=
  ∑ j : Fin 2048, x0 (ix2 p j) * w (ix2 j d)

/-- The first product of the body is the features. -/
theorem feat_apply (x0 : FVec Ideal S1024x2048 .f32) (w : FVec Ideal S2048x768 .bf16) (p : Fin 1024) (d : Fin 768) :
    matmul dot_S1024x2048_S2048x768_S1024x768_1_0_0_1_n_n none (truncf .bf16 x0 bitsLt_bf16_f32)
        (shapeCast S2048x768 w shapeCasts_S2048x768_S2048x768) (constant S1024x768 .f32 0x00000000#32) (ix2 p d)
      = feat x0 w p d :=
  (matmul_plain_apply dot_S1024x2048_S2048x768_S1024x768_1_0_0_1_n_n rfl rfl rfl rfl rfl rfl _ _ p d).trans
    (Finset.sum_congr rfl fun j _ => congrArg₂ (· * ·) rfl (congrFun (shapeCast_self w _) _))

/-- The second product is the row vector `z q`. -/
theorem featMat_apply (Z : FVec Ideal S1024x768 .f32) (q : FVec Ideal S768x768 .bf16) (p : Fin 1024) (d : Fin 768) :
    matmul dot_S1024x768_S768x768_S1024x768_1_0_0_1_n_n none (truncf .bf16 Z bitsLt_bf16_f32)
        (shapeCast S768x768 q shapeCasts_S768x768_S768x768) (constant S1024x768 .f32 0x00000000#32) (ix2 p d)
      = vecMat (fun e => Z (ix2 p e)) (fun e d => q (ix2 e d)) d :=
  (matmul_plain_apply dot_S1024x768_S768x768_S1024x768_1_0_0_1_n_n rfl rfl rfl rfl rfl rfl _ _ p d).trans
    (Finset.sum_congr rfl fun e _ => congrArg₂ (· * ·) rfl (congrFun (shapeCast_self q _) _))

/-- The third product pairs the row vector with each class mean. -/
theorem cross_apply (Y : FVec Ideal S1024x768 .f32) (mu : FVec Ideal S100x768 .bf16) (p : Fin 1024) (k : Fin 100) :
    matmul dot_S1024x768_S100x768_S1024x100_1_1_0_0_n_n none (truncf .bf16 Y bitsLt_bf16_f32)
        (shapeCast S100x768 mu shapeCasts_S100x768_S100x768) (constant S1024x100 .f32 0x00000000#32) (ix2 p k)
      = ∑ d : Fin 768, Y (ix2 p d) * mu (ix2 k d) :=
  (matmul_transposed_apply dot_S1024x768_S100x768_S1024x100_1_1_0_0_n_n rfl rfl rfl rfl rfl rfl _ _ p k).trans
    (Finset.sum_congr rfl fun d _ => congrArg₂ (· * ·) rfl (congrFun (shapeCast_self mu _) _))

/-! ## The body -/

/-- What the body stores at row `p` of its output block. -/
theorem body_apply (x0 : FVec Ideal S1024x2048 .f32) (w : FVec Ideal S2048x768 .bf16) (q : FVec Ideal S768x768 .bf16)
    (mu : FVec Ideal S100x768 .bf16) (r : FVec Ideal S1x100 .f32) (p : Fin 1024) :
    k0_pay1 (F := Ideal) x0 w q mu r (ix1 p)
      = (Finset.univ : Finset (Fin 100)).fold max (Ideal.ofBits .f32 0xFF800000#32) (fun k =>
          Ideal.ofBits .f32 0xBF000000#32 *
            ((form (feat x0 w p) (fun e d => q (ix2 e d)) (feat x0 w p)
                - Ideal.ofBits .f32 0x40000000#32 * form (feat x0 w p) (fun e d => q (ix2 e d)) (fun d => mu (ix2 k d)))
              + r (ix2 (0 : Fin 1) k))) := by
  unfold k0_pay1
  refine (rowMax_apply _ _ _ _ p).trans (Finset.fold_congr fun k _ => ?_)
  show Ideal.ofBits .f32 0xBF000000#32 * ((_ - Ideal.ofBits .f32 0x40000000#32 * _) + _) = _
  refine congrArg (Ideal.ofBits .f32 0xBF000000#32 * ·) (congrArg₂ (· + ·) (congrArg₂ (· - ·) ?_ (congrArg (Ideal.ofBits .f32 0x40000000#32 * ·) ?_)) ?_)
  · -- the row sum, kept as a column and spread over the classes
    refine (Cert.LibColumn.broadcastTo_a1_ab_apply _ _ p k).trans ?_
    refine (Cert.LibColumn.shapeCast_a_a1_apply _ _ p 0).trans ?_
    refine (rowSum_apply _ _ _ _ p).trans ?_
    unfold form
    refine Finset.sum_congr rfl fun d _ => ?_
    show _ * _ = _
    refine congrArg₂ (· * ·) ?_ (feat_apply x0 w p d)
    refine (featMat_apply _ q p d).trans ?_
    unfold vecMat
    exact Finset.sum_congr rfl fun e _ => congrArg₂ (· * ·) (feat_apply x0 w p e) rfl
  · -- the row vector against class `k`'s mean
    refine (cross_apply _ mu p k).trans ?_
    unfold form
    refine Finset.sum_congr rfl fun d _ => congrArg₂ (· * ·) ?_ rfl
    refine (featMat_apply _ q p d).trans ?_
    unfold vecMat
    exact Finset.sum_congr rfl fun e _ => congrArg₂ (· * ·) (feat_apply x0 w p e) rfl
  · -- the per-class row, spread over the samples
    exact (broadcastTo_1b_ab_apply _ _ p k).trans (congrFun (shapeCast_self r _) _)

end Cert.KernelIdeal.Body

end
-- ==== Proof.KernelWhole.lean ====
/-
  From blocks to the whole array: the kernel's result is `resultSym` of its arguments.

  The grid has eight points. Point `t` stages rows `1024 t … 1024 t + 1023` of the samples and, whole, the projection, the
  class means, the symmetric part of the matrix and the per-class row; it writes back rows `1024 t …` of the result. Row
  `p` of what it writes is the body's value at the block's row `p`, which is entry `1024 t + p` of `resultSym`: the block's
  row is the sample's row, and the per-class row holds `0 + μₖᵀSμₖ`. The eight blocks tile the 8192 entries.
-/
import proofs.«102880_j73744588473029_2_alg».proof.Proof.Gen.KernelIdeal.Value
import proofs.«102880_j73744588473029_2_alg».proof.Proof.KernelEntry
import proofs.«102880_j73744588473029_2_alg».proof.Proof.KernelBody
import proofs.«102880_j73744588473029_2_alg».proof.Proof.ScoreSpec

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.Score
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a; rfl

/-- The printed index maps, decided over the eight points: the samples' row block and the result's block are the
    point's number; every other block index is zero. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = t.val :=
  (by decide +kernel : ∀ t : Fin grid0.N, _)

/-! ## Each window's block at a point -/

/-- Row `p` of the samples' block at point `t` is row `1024 t + p` of the samples. -/
theorem samples_blk (c : Dev nD) (t : Fin cfg0.N) (p : Fin 1024) (j : Fin 2048) (n : Fin 8192)
    (hn : n.val = t.val * 1024 + p.val) :
    (iblk m c 0 t : Vec Ideal S1024x2048 .f32) (ix2 p j) = m ((c : Thread nD τ).loc main_arg0) (ix2 n j) := by
  obtain ⟨e0, e1, -⟩ := index_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 1024 + 1 * p.val = n.val; rw [e0, hn]; omega
  | ⟨1, _⟩ => show win0_0.index t (1 : Fin 2) * 2048 + 1 * j.val = j.val; rw [e1]; omega

/-- The projection's block is the projection. -/
theorem weights_blk (c : Dev nD) (t : Fin cfg0.N) (j : Fin 2048) (d : Fin 768) :
    (iblk m c 1 t : Vec Ideal S2048x768 .bf16) (ix2 j d) = m ((c : Thread nD τ).loc main_arg1) (ix2 j d) := by
  obtain ⟨-, -, e0, e1, -⟩ := index_facts t
  unfold iblk
  rw [View.read_apply]
  show (V m c main_v4 : S2048x768.Idx → EReal) _ = _
  rw [Entry.weights]
  refine congrArg (m ((c : Thread nD τ).loc main_arg1)) (funext fun a => Fin.ext ?_)
  match a with
  | ⟨0, _⟩ => show win0_1.index t (0 : Fin 2) * 2048 + 1 * j.val = j.val; rw [e0]; omega
  | ⟨1, _⟩ => show win0_1.index t (1 : Fin 2) * 768 + 1 * d.val = d.val; rw [e1]; omega

/-- The class means' block is the class means. -/
theorem means_blk (c : Dev nD) (t : Fin cfg0.N) (k : Fin 100) (d : Fin 768) :
    (iblk m c 2 t : Vec Ideal S100x768 .bf16) (ix2 k d) = m ((c : Thread nD τ).loc main_arg2) (ix2 k d) := by
  obtain ⟨-, -, -, -, e0, e1, -⟩ := index_facts t
  unfold iblk
  rw [View.read_apply]
  show (V m c main_v6 : S100x768.Idx → EReal) _ = _
  rw [Entry.means]
  refine congrArg (m ((c : Thread nD τ).loc main_arg2)) (funext fun a => Fin.ext ?_)
  match a with
  | ⟨0, _⟩ => show win0_2.index t (0 : Fin 2) * 100 + 1 * k.val = k.val; rw [e0]; omega
  | ⟨1, _⟩ => show win0_2.index t (1 : Fin 2) * 768 + 1 * d.val = d.val; rw [e1]; omega

/-- The matrix window's block is the symmetric part of the matrix. -/
theorem symPart_blk (c : Dev nD) (t : Fin cfg0.N) (e d : Fin 768) :
    (iblk m c 3 t : Vec Ideal S768x768 .bf16) (ix2 e d)
      = symm (Ideal.ofBits .f32 0x3F000000#32) (fun e d => m ((c : Thread nD τ).loc main_arg3) (ix2 e d)) e d := by
  obtain ⟨-, -, -, -, -, -, e0, e1, -⟩ := index_facts t
  unfold iblk
  rw [View.read_apply]
  refine Eq.trans ?_ (Entry.symPart m c e d)
  show V m c main_v5 _ = V m c main_v5 _
  refine congrArg (V m c main_v5) (funext fun a => Fin.ext ?_)
  match a with
  | ⟨0, _⟩ => show win0_3.index t (0 : Fin 2) * 768 + 1 * e.val = e.val; rw [e0]; omega
  | ⟨1, _⟩ => show win0_3.index t (1 : Fin 2) * 768 + 1 * d.val = d.val; rw [e1]; omega

/-- The per-class row's block holds, at class `k`, `0 + μₖᵀ S μₖ`. -/
theorem classRow_blk (c : Dev nD) (t : Fin cfg0.N) (k : Fin 100) :
    (iblk m c 4 t : Vec Ideal S1x100 .f32) (ix2 (0 : Fin 1) k)
      = Ideal.ofBits .f32 0x00000000#32
        + form (fun d => m ((c : Thread nD τ).loc main_arg2) (ix2 k d))
            (symm (Ideal.ofBits .f32 0x3F000000#32) (fun e d => m ((c : Thread nD τ).loc main_arg3) (ix2 e d)))
            (fun d => m ((c : Thread nD τ).loc main_arg2) (ix2 k d)) := by
  obtain ⟨-, -, -, -, -, -, -, -, e0, e1, -⟩ := index_facts t
  unfold iblk
  rw [View.read_apply]
  refine Eq.trans ?_ (Entry.classRow m c k)
  show V m c main_v11 _ = V m c main_v11 _
  refine congrArg (V m c main_v11) (funext fun a => Fin.ext ?_)
  match a with
  | ⟨0, _⟩ => show win0_4.index t (0 : Fin 2) * 1 + 1 * 0 = 0; rw [e0]
  | ⟨1, _⟩ => show win0_4.index t (1 : Fin 2) * 100 + 1 * k.val = k.val; rw [e1]; omega

/-! ## What a point writes back -/

/-- Row `p` of what point `t` computes is the entry of `resultSym` at that row of the result's block. -/
theorem body_row (c : Dev nD) (t : Fin cfg0.N) (p : Fin 1024) :
    k0_pay1 (F := Ideal) (iblk m c 0 t) (iblk m c 1 t) (iblk m c 3 t) (iblk m c 2 t) (iblk m c 4 t) (ix1 p)
      = resultSym (m ((c : Thread nD τ).loc main_arg0)) (m ((c : Thread nD τ).loc main_arg1))
          (m ((c : Thread nD τ).loc main_arg2)) (m ((c : Thread nD τ).loc main_arg3))
          (((cfg0.win 5).blk t).view.emb (ix1 p)) := by
  obtain ⟨-, -, -, -, -, -, -, -, -, -, e5⟩ := index_facts t
  refine (Body.body_apply (iblk m c 0 t) (iblk m c 1 t) (iblk m c 3 t) (iblk m c 2 t) (iblk m c 4 t) p).trans ?_
  unfold resultSym
  refine Finset.fold_congr fun k _ => ?_
  unfold scoreSym
  have hz : Body.feat (iblk m c 0 t) (iblk m c 1 t) p
      = features (m ((c : Thread nD τ).loc main_arg0)) (m ((c : Thread nD τ).loc main_arg1))
          ((((cfg0.win 5).blk t).view.emb (ix1 p)) 0) :=
    funext fun d => Finset.sum_congr rfl fun j _ => congrArg₂ (· * ·)
      (samples_blk m c t p j _ (by
        show win0_5.index t (0 : Fin 1) * 1024 + 1 * p.val = _
        rw [e5]; omega))
      (weights_blk m c t j d)
  have hq : (fun e d => (iblk m c 3 t : Vec Ideal S768x768 .bf16) (ix2 e d))
      = symm (Ideal.ofBits .f32 0x3F000000#32) (fun e d => m ((c : Thread nD τ).loc main_arg3) (ix2 e d)) :=
    funext fun e => funext fun d => symPart_blk m c t e d
  have hm : (fun d => (iblk m c 2 t : Vec Ideal S100x768 .bf16) (ix2 k d))
      = fun d => m ((c : Thread nD τ).loc main_arg2) (ix2 k d) :=
    funext fun d => means_blk m c t k d
  rw [hz, hq, hm, classRow_blk m c t k]

/-- What point `t` writes back is block `t` of `resultSym` of the arguments. -/
theorem flushed_eq (c : Dev nD) (t : Fin cfg0.N) :
    (dats m 0 c).flushed 5 t = ((cfg0.win 5).blk t).view.read (Elt Ideal)
      (resultSym (m ((c : Thread nD τ).loc main_arg0)) (m ((c : Thread nD τ).loc main_arg1))
        (m ((c : Thread nD τ).loc main_arg2)) (m ((c : Thread nD τ).loc main_arg3))) := by
  show (cfg0.win 5).cut (grid0.coords t) ((dats m 0 c).after 5 t) = _
  rw [after0_5]
  unfold out0_5
  rw [View.canon_unit_zero zeros1]
  simp only [View.ld_unit_zero (S := S1024x2048) zeros2, View.ld_unit_zero (S := S2048x768) zeros2,
    View.ld_unit_zero (S := S768x768) zeros2, View.ld_unit_zero (S := S100x768) zeros2,
    View.ld_unit_zero (S := S1x100) zeros2]
  funext j
  obtain ⟨p, rfl⟩ : ∃ p : Fin 1024, j = ix1 p := ⟨j 0, eq_ix1 j⟩
  exact body_row m c t p

/-! ## The whole array -/

/-- An entry of the result is in point `t`'s block iff it lies in rows `1024 t … 1024 t + 1023`. -/
theorem mem_blk (t : Fin cfg0.N) (i : S8192.Idx) :
    i ∈ ((cfg0.win 5).blk t).view.set
      ↔ ∀ a : Fin 1, win0_5.index t a * S1024.size a ≤ (i a).val ∧ (i a).val < win0_5.index t a * S1024.size a + S1024.size a := by
  show i ∈ ((View.whole main_v12).slice (win0_5.rect t)).set ↔ _
  rw [View.set_slice_whole, Rect.mem_set_unit]
  exact Iff.rfl

/-- Every entry of the result is in the block of the point `⌊n / 1024⌋`. -/
theorem cover (i : S8192.Idx) :
    ∃ t : Fin cfg0.N, (cfg0.win 5).flush t = true ∧ i ∈ ((cfg0.win 5).blk t).view.set := by
  have hi : (i 0).val < 8192 := (i 0).isLt
  have hN : cfg0.N = 8 := N_0
  refine ⟨⟨(i 0).val / 1024, lt_of_lt_of_eq (by omega) hN.symm⟩, flush0_5 _, ?_⟩
  rw [mem_blk]
  intro a
  obtain ⟨-, -, -, -, -, -, -, -, -, -, e5⟩ := index_facts ⟨(i 0).val / 1024, lt_of_lt_of_eq (by omega) hN.symm⟩
  match a with
  | ⟨0, _⟩ =>
    show win0_5.index ⟨(i 0).val / 1024, _⟩ (0 : Fin 1) * 1024 ≤ (i 0).val
      ∧ (i 0).val < win0_5.index ⟨(i 0).val / 1024, _⟩ (0 : Fin 1) * 1024 + 1024
    rw [e5]
    show (i 0).val / 1024 * 1024 ≤ (i 0).val ∧ (i 0).val < (i 0).val / 1024 * 1024 + 1024
    omega

/-- After the run the result array holds `resultSym` of the arguments. -/
theorem final (c : Dev nD) :
    (dats m 0 c).arrAt 5 cfg0.N
      = resultSym (m ((c : Thread nD τ).loc main_arg0)) (m ((c : Thread nD τ).loc main_arg1))
          (m ((c : Thread nD τ).loc main_arg2)) (m ((c : Thread nD τ).loc main_arg3)) :=
  (dats m 0 c).arrAt_eq_of_cover 5 _ (fun t _ => flushed_eq m c t) cover

/-- The kernel's run: the result at `resultSym` of the arguments, the arguments unchanged. -/
theorem run : θ_run defs (onTc (τ := τ) (main (F := Ideal))) ⟨m, fun _ => 0, ρ⟩ fun r => ∀ c : Dev nD,
      r.2.mem ((c : Thread nD τ).loc main_v12)
        = resultSym (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.ReferenceStages.lean ====
/-
  The reference's result array is `resultFour` of its arguments.

  The reference computes, for the whole batch at once, the features `z = x W`, the row vectors `z P` and `μ P`, the four
  terms `zᵀPz`, `zᵀPμ`, `μᵀPz` (as `z · (μ P)`) and `μᵀPμ`, the score, and its maximum over the classes. Each stage is read
  at coordinates from the stage before it.
-/
import proofs.«102880_j73744588473029_2_alg».proof.Proof.Gen.ReferenceIdeal.Read
import proofs.«102880_j73744588473029_2_alg».proof.Proof.ScoreSpec
import Idealize.ShloMosaic.PureOps.Ideal.Laws

noncomputable section

open scoped BigOperators

namespace Cert.ReferenceIdeal.Stages

open Cert.ReferenceIdeal Cert.ReferenceIdeal.Gen Cert.ReferenceIdeal.Read Idealize.ShloMosaic Idealize.ShloMosaic.ValueIdx Cert.Score

variable (x : (⟨S8192x2048, .f32⟩ : BufTy).Contents (Elt Ideal)) (W : (⟨S2048x768, .f32⟩ : BufTy).Contents (Elt Ideal))
  (mu : (⟨S100x768, .f32⟩ : BufTy).Contents (Elt Ideal)) (P : (⟨S768x768, .f32⟩ : BufTy).Contents (Elt Ideal))

/-- The host's maximum along a row of a `[8192, 100]` array, read at row `n`: the fold of `max` from the initial value. -/
theorem rowMax_apply (src : FVec Ideal S8192x100 .f32) (init : FVec Ideal S_ .f32) (h' : S8192x100.ReducesTo [1] S8192)
    (hu : 0 < S_.numel) (n : Fin 8192) :
    Host.reduce FloatOps.maximumf src init h' hu (ix1 n)
      = (Finset.univ : Finset (Fin 100)).fold max (init (Shape.Idx.first hu)) (fun k => src (ix2 n k)) :=
  (Host.reduce_eq_fold_single FloatOps.maximumf src init h' (by decide) hu (ix1 n)).trans
    (Finset.fold_congr fun k _ => congrArg src
      (funext fun a => Fin.ext (by match a with | ⟨0, _⟩ => rfl | ⟨1, _⟩ => rfl)))

/-- The features. -/
theorem feat_apply (n : Fin 8192) (d : Fin 768) : val_main_v0 (F := Ideal) x W (ix2 n d) = features x W n d :=
  (val_main_v0_apply x W (ix2 n d)).trans (Finset.sum_congr rfl fun j _ => congrArg₂ (· * ·)
    (congrArg x (funext fun a => Fin.ext (by match a with | ⟨0, _⟩ => rfl | ⟨1, _⟩ => rfl)))
    (congrArg W (funext fun a => Fin.ext (by match a with | ⟨0, _⟩ => rfl | ⟨1, _⟩ => rfl))))

/-- The row vector `z P`. -/
theorem featMat_apply (n : Fin 8192) (d : Fin 768) :
    val_main_v1 (F := Ideal) x W P (ix2 n d) = vecMat (features x W n) (fun e d => P (ix2 e d)) d :=
  (val_main_v1_apply x W P (ix2 n d)).trans (Finset.sum_congr rfl fun e _ => congrArg₂ (· * ·)
    ((congrArg (val_main_v0 (F := Ideal) x W) (funext fun a => Fin.ext (by match a with | ⟨0, _⟩ => rfl | ⟨1, _⟩ => rfl))).trans
      (feat_apply x W n e))
    (congrArg P (funext fun a => Fin.ext (by match a with | ⟨0, _⟩ => rfl | ⟨1, _⟩ => rfl))))

/-- The row vector `μₖ P`. -/
theorem meanMat_apply (k : Fin 100) (d : Fin 768) :
    val_main_v2 (F := Ideal) mu P (ix2 k d) = vecMat (fun e => mu (ix2 k e)) (fun e d => P (ix2 e d)) d :=
  (val_main_v2_apply mu P (ix2 k d)).trans (Finset.sum_congr rfl fun e _ => congrArg₂ (· * ·)
    (congrArg mu (funext fun a => Fin.ext (by match a with | ⟨0, _⟩ => rfl | ⟨1, _⟩ => rfl)))
    (congrArg P (funext fun a => Fin.ext (by match a with | ⟨0, _⟩ => rfl | ⟨1, _⟩ => rfl))))

/-- `0 + zᵀPz`. -/
theorem selfForm_apply (n : Fin 8192) :
    val_main_v4 (F := Ideal) x W P (ix1 n)
      = Ideal.ofBits .f32 0x00000000#32 + form (features x W n) (fun e d => P (ix2 e d)) (features x W n) :=
  (val_main_v4_apply x W P (ix1 n)).trans (congrArg₂ (· + ·) rfl (Finset.sum_congr rfl fun d _ =>
    ((congrArg (val_main_v3 (F := Ideal) x W P) (funext fun a => Fin.ext (by match a with | ⟨0, _⟩ => rfl | ⟨1, _⟩ => rfl))).trans
      (congrArg₂ (· * ·) (featMat_apply x W P n d) (feat_apply x W n d)))))

/-- `zᵀPμₖ`. -/
theorem crossLeft_apply (n : Fin 8192) (k : Fin 100) :
    val_main_v6 (F := Ideal) x W mu P (ix2 n k)
      = form (features x W n) (fun e d => P (ix2 e d)) (fun d => mu (ix2 k d)) :=
  (val_main_v6_apply x W mu P (ix2 n k)).trans (Finset.sum_congr rfl fun d _ => congrArg₂ (· * ·)
    ((congrArg (val_main_v1 (F := Ideal) x W P) (funext fun a => Fin.ext (by match a with | ⟨0, _⟩ => rfl | ⟨1, _⟩ => rfl))).trans
      (featMat_apply x W P n d))
    ((val_main_v5_apply mu _).trans
      (congrArg mu (funext fun a => Fin.ext (by match a with | ⟨0, _⟩ => rfl | ⟨1, _⟩ => rfl)))))

/-- `μₖᵀPz`, as `z · (μₖ P)`. -/
theorem crossRight_apply (n : Fin 8192) (k : Fin 100) :
    val_main_v8 (F := Ideal) x W mu P (ix2 n k)
      = ∑ d : Fin 768, features x W n d * vecMat (fun e => mu (ix2 k e)) (fun e d => P (ix2 e d)) d :=
  (val_main_v8_apply x W mu P (ix2 n k)).trans (Finset.sum_congr rfl fun d _ => congrArg₂ (· * ·)
    ((congrArg (val_main_v0 (F := Ideal) x W) (funext fun a => Fin.ext (by match a with | ⟨0, _⟩ => rfl | ⟨1, _⟩ => rfl))).trans
      (feat_apply x W n d))
    ((val_main_v7_apply mu P _).trans
      ((congrArg (val_main_v2 (F := Ideal) mu P) (funext fun a => Fin.ext (by match a with | ⟨0, _⟩ => rfl | ⟨1, _⟩ => rfl))).trans
        (meanMat_apply mu P k d))))

/-- `0 + μₖᵀPμₖ`. -/
theorem meanForm_apply (k : Fin 100) :
    val_main_v10 (F := Ideal) mu P (ix1 k)
      = Ideal.ofBits .f32 0x00000000#32 + form (fun d => mu (ix2 k d)) (fun e d => P (ix2 e d)) (fun d => mu (ix2 k d)) :=
  (val_main_v10_apply mu P (ix1 k)).trans (congrArg₂ (· + ·) rfl (Finset.sum_congr rfl fun d _ =>
    ((congrArg (val_main_v9 (F := Ideal) mu P) (funext fun a => Fin.ext (by match a with | ⟨0, _⟩ => rfl | ⟨1, _⟩ => rfl))).trans
      (congrArg₂ (· * ·) (meanMat_apply mu P k d) rfl))))

/-- The score of sample `n` against class `k`. -/
theorem score_apply (n : Fin 8192) (k : Fin 100) :
    val_main_v19 (F := Ideal) x W mu P (ix2 n k)
      = scoreFour (Ideal.ofBits .f32 0xBF000000#32) (Ideal.ofBits .f32 0x00000000#32)
          (features x W n) (fun d => mu (ix2 k d)) (fun e d => P (ix2 e d)) := by
  unfold scoreFour
  show val_main_v18 (F := Ideal) (ix2 n k)
      * (((val_main_v12 (F := Ideal) x W P (ix2 n k) - val_main_v6 (F := Ideal) x W mu P (ix2 n k))
          - val_main_v8 (F := Ideal) x W mu P (ix2 n k)) + val_main_v16 (F := Ideal) mu P (ix2 n k)) = _
  refine congrArg₂ (· * ·) (val_main_v18_apply _) (congrArg₂ (· + ·) (congrArg₂ (· - ·) (congrArg₂ (· - ·) ?_
    (crossLeft_apply x W mu P n k)) (crossRight_apply x W mu P n k)) ?_)
  · refine (val_main_v12_apply x W P _).trans ((val_main_v11_apply x W P _).trans ?_)
    exact (congrArg (val_main_v4 (F := Ideal) x W P) (funext fun a => Fin.ext (by match a with | ⟨0, _⟩ => rfl))).trans
      (selfForm_apply x W P n)
  · refine (val_main_v16_apply mu P _).trans ((val_main_v15_apply mu P _).trans ?_)
    exact (congrArg (val_main_v10 (F := Ideal) mu P) (funext fun a => Fin.ext (by match a with | ⟨0, _⟩ => rfl))).trans
      (meanForm_apply mu P k)

/-- The reference's result array. -/
theorem result_eq : val_main_v20 (F := Ideal) x W mu P = resultFour x W mu P := by
  funext i
  obtain ⟨n, rfl⟩ : ∃ n : Fin 8192, i = ix1 n := ⟨i 0, eq_ix1 i⟩
  unfold val_main_v20 resultFour
  refine (rowMax_apply _ _ _ _ n).trans (Finset.fold_congr fun k _ => score_apply x W mu P n k)

end Cert.ReferenceIdeal.Stages

end
-- ==== Proof.lean ====
/-
  The certificate: a Gaussian discriminant's best class score, computed two ways.

  Both programs take samples `x`, a projection `W`, class means `μ` and a matrix `P`, form the features `z = x W`, and return
  for each sample the largest, over the classes, of `-½ (z - μₖ)ᵀ P (z - μₖ)`. The reference expands the quadratic form
  with `P` itself into four terms. The kernel first replaces `P` by its symmetric part `S = ½ (P + Pᵀ)`, prepares the
  per-class numbers `μₖᵀSμₖ`, and, for a block of 1024 samples per grid point, computes `zᵀSz - 2 zᵀSμₖ + μₖᵀSμₖ`.

  A quadratic form sees only the symmetric part of its matrix, and `2 zᵀSμ = zᵀPμ + μᵀPz`: the two scores are the same
  real number for every real `P`. That identity distributes products over sums, which on the extended reals holds only
  away from the infinities, so the precondition (every input finite) is used. The three frames are the generated ones,
  the reference's being its generated run with the result dropped; nothing was rewritten by the idealization.
-/
import proofs.«102880_j73744588473029_2_alg».proof.Defs
import proofs.«102880_j73744588473029_2_alg».proof.Proof.Gen.Kernel
import proofs.«102880_j73744588473029_2_alg».proof.Proof.Gen.Kernel.Skeleton
import proofs.«102880_j73744588473029_2_alg».proof.Proof.Gen.Kernel.Launch
import proofs.«102880_j73744588473029_2_alg».proof.Proof.Gen.Kernel.Points
import proofs.«102880_j73744588473029_2_alg».proof.Proof.Gen.Kernel.Frame
import proofs.«102880_j73744588473029_2_alg».proof.Proof.Gen.KernelIdeal
import proofs.«102880_j73744588473029_2_alg».proof.Proof.Gen.KernelIdeal.Skeleton
import proofs.«102880_j73744588473029_2_alg».proof.Proof.Gen.KernelIdeal.Launch
import proofs.«102880_j73744588473029_2_alg».proof.Proof.Gen.KernelIdeal.Points
import proofs.«102880_j73744588473029_2_alg».proof.Proof.Gen.KernelIdeal.Frame
import proofs.«102880_j73744588473029_2_alg».proof.Proof.Gen.ReferenceIdeal
import proofs.«102880_j73744588473029_2_alg».proof.Proof.Gen.Pre_finite_inputs
import proofs.«102880_j73744588473029_2_alg».proof.Proof.Gen.KernelIdeal.Value
import proofs.«102880_j73744588473029_2_alg».proof.Proof.Gen.ReferenceIdeal.Run
import proofs.«102880_j73744588473029_2_alg».proof.Proof.Gen.ReferenceIdeal.Read
import proofs.«102880_j73744588473029_2_alg».proof.Proof.ScoreSpec
import proofs.«102880_j73744588473029_2_alg».proof.Proof.FiniteInputs
import proofs.«102880_j73744588473029_2_alg».proof.Proof.KernelWhole
import proofs.«102880_j73744588473029_2_alg».proof.Proof.ReferenceStages
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on finite arguments, the kernel ends at the symmetric-part arrangement of the result and the
    reference at the four-term one; for real arguments they are one array. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.Stages.result_eq,
    (hagree c).1, (hagree c).2.1, (hagree c).2.2.1, (hagree c).2.2.2]
  obtain ⟨hx, hW, hmu, hP⟩ := Cert.Score.real_of_finite_inputs _ _ _ _ (hpre c)
  exact (Cert.Score.resultSym_eq_resultFour _ _ _ _ hx hW hmu hP).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
